-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 54
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x40, .f32⟩
  | .hbm, ⟨53, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x40, .f32⟩
  | .hbm, ⟨63, _⟩ => ⟨S1x40, .f32⟩
  | .hbm, ⟨64, _⟩ => ⟨S100000x40, .f32⟩
  | .hbm, ⟨65, _⟩ => ⟨S100000x40, .f32⟩
  | .hbm, ⟨66, _⟩ => ⟨S_, .f32⟩
  | .hbm, ⟨67, _⟩ => ⟨S100000x40, .f32⟩
  | .hbm, ⟨68, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_v44 : Ref sig .tc := ⟨.hbm, 68, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibDense.lean ====
/-
  One graph-convolution layer after the neighbour sums have been taken: a dense layer with a rectifier,
  `relu (x · W + b)`, as one function of its three arrays, entry by entry over the extended reals.
  Entry `(r, q)` is `max (∑ k, x (r, k) · W (k, q) + b (0, q)) 0`; the bias is kept as a one-row matrix, the
  form in which a row block of `x` meets it. The same formula describes a block of rows and the whole array:
  row `r` of the result depends on row `r` of `x` only.
-/
import Idealize.ShloMosaic.PureOps.Ideal
import Idealize.ShloMosaic.Lib.ValueIdx

noncomputable section

open scoped BigOperators

namespace Cert.Dense

open Idealize.ShloMosaic Idealize.ShloMosaic.ValueIdx

/-- `relu (x · W + b)`, entry by entry: the inner product of row `r` of `x` with column `q` of `W`, plus the
    bias at `q`, cut off below at zero. -/
def dense {M K N : ℕ} (x : FVec Ideal ⟨2, ![M, K]⟩ .f32) (W : FVec Ideal ⟨2, ![K, N]⟩ .f32)
    (b : FVec Ideal ⟨2, ![1, N]⟩ .f32) : FVec Ideal ⟨2, ![M, N]⟩ .f32 :=
  fun i => max ((∑ k : Fin K, x (ix2 (i 0) k) * W (ix2 k (i 1))) + b (ix2 (0 : Fin 1) (i 1)))
    (Ideal.ofBits .f32 0x00000000#32)

/-- The layer at an entry given by its two coordinates. -/
theorem dense_apply {M K N : ℕ} (x : FVec Ideal ⟨2, ![M, K]⟩ .f32) (W : FVec Ideal ⟨2, ![K, N]⟩ .f32)
    (b : FVec Ideal ⟨2, ![1, N]⟩ .f32) (r : Fin M) (q : Fin N) :
    dense x W b (ix2 r q) = max ((∑ k : Fin K, x (ix2 r k) * W (ix2 k q)) + b (ix2 (0 : Fin 1) q))
      (Ideal.ofBits .f32 0x00000000#32) := rfl

/-- Row `r` of the layer's result is determined by row `r` of `x`: if two inputs agree along the rows `r` and
    `r'`, the results agree at `(r, q)` and `(r', q)`. This is what lets a block of rows be computed alone. -/
theorem dense_row {M M' K N : ℕ} (x : FVec Ideal ⟨2, ![M, K]⟩ .f32) (x' : FVec Ideal ⟨2, ![M', K]⟩ .f32)
    (W : FVec Ideal ⟨2, ![K, N]⟩ .f32) (b : FVec Ideal ⟨2, ![1, N]⟩ .f32) (r : Fin M) (r' : Fin M') (q : Fin N)
    (h : ∀ k : Fin K, x (ix2 r k) = x' (ix2 r' k)) : dense x W b (ix2 r q) = dense x' W b (ix2 r' q) := by
  rw [dense_apply, dense_apply]
  exact congrArg (fun s => max (s + b (ix2 (0 : Fin 1) q)) (Ideal.ofBits .f32 0x00000000#32))
    (Finset.sum_congr rfl fun k _ => by rw [h k])

end Cert.Dense

end
-- ==== Proof.Payload.lean ====
/-
  What each of the three kernel bodies stores, as a function of the blocks it loads: the dense layer
  `relu (x · W + b)` of `Cert.Dense` on a block of 5000 rows. The body casts both factors to a narrower float
  format (the identity on the extended reals), multiplies them into a zero accumulator (a plain sum of products over
  the 128 shared coordinates), adds the one-row bias repeated down the rows, and takes the maximum with zero.
  The first two calls produce 128 columns, the third 40.
-/
import proofs.«148105_j33569464386076_1_alg».proof.Proof.Gen.KernelIdeal.Skeleton
import proofs.«148105_j33569464386076_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Dense Idealize.ShloMosaic Idealize.ShloMosaic.ValueIdx

/-! ## A block product into 128 columns -/

/-- Row coordinate of the left factor met at output entry `i`: the entry's own row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Column coordinate of the left factor: the summation index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Row coordinate of the right factor: the summation index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Column coordinate of the right factor: the entry's own column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at entry `(p, q)`, its accumulator zero, is the inner product of row `p` of the left block with
    column `q` of the right one: the contraction's one axis re-indexed by its coordinate. -/
theorem matmul_entry (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- What the body of call 0 stores is the dense layer of its three loaded blocks: the two changes of float format are
    the identity on the extended reals, the product accumulates into zero, the one-row bias is repeated down the rows. -/
theorem pay0_eq (x0 : FVec Ideal S5000x128 .f32) (x1 : FVec Ideal S128x128 .f32) (x2 : FVec Ideal S1x128 .f32) :
    k0_pay1 (F := Ideal) x0 x1 x2 = dense x0 x1 x2 := by
  funext j
  obtain ⟨p, q, rfl⟩ : ∃ (p : Fin 5000) (q : Fin 128), j = ix2 p q := ⟨j 0, j 1, eq_ix2 j⟩
  rw [dense_apply]
  unfold k0_pay1
  simp only [shapeCast_self]
  refine (congrArg₂ max (congrArg₂ (· + ·) (matmul_entry _ _ p q) (broadcastTo_1b_ab_apply x2 broadcasts_S1x128_S5000x128 p q)) rfl).trans ?_
  rfl

/-- What the body of call 1 stores is the dense layer of its three loaded blocks: the two changes of float format are
    the identity on the extended reals, the product accumulates into zero, the one-row bias is repeated down the rows. -/
theorem pay1_eq (x0 : FVec Ideal S5000x128 .f32) (x1 : FVec Ideal S128x128 .f32) (x2 : FVec Ideal S1x128 .f32) :
    k1_pay1 (F := Ideal) x0 x1 x2 = dense x0 x1 x2 := by
  funext j
  obtain ⟨p, q, rfl⟩ : ∃ (p : Fin 5000) (q : Fin 128), j = ix2 p q := ⟨j 0, j 1, eq_ix2 j⟩
  rw [dense_apply]
  unfold k1_pay1
  simp only [shapeCast_self]
  refine (congrArg₂ max (congrArg₂ (· + ·) (matmul_entry _ _ p q) (broadcastTo_1b_ab_apply x2 broadcasts_S1x128_S5000x128 p q)) rfl).trans ?_
  rfl

/-! ## A block product into 40 columns -/

/-- Row coordinate of the left factor met at output entry `i`: the entry's own row. -/
theorem lhs_row40 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- Column coordinate of the left factor: the summation index. -/
theorem lhs_col40 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- Row coordinate of the right factor: the summation index. -/
theorem rhs_row40 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
/-- Column coordinate of the right factor: the entry's own column. -/
theorem rhs_col40 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The block product at entry `(p, q)`, its accumulator zero, is the inner product of row `p` of the left block with
    column `q` of the right one: the contraction's one axis re-indexed by its coordinate. -/
theorem matmul_entry40 (l : FVec Ideal S5000x128 .bf16) (r : FVec Ideal S128x40 .bf16) (p : Fin 5000) (q : Fin 40) :
    matmul (F := Ideal) dot_S5000x128_S128x40_S5000x40_1_0_0_1_n_n none l r (constant (F := Ideal) S5000x40 .f32 0x00000000#32) (ix2 p q)
      = ∑ k : Fin 128, l (ix2 p k) * r (ix2 k q) := by
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs_row40 _ _
    | ⟨1, _⟩ => exact (lhs_col40 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs_row40 _ _).trans hk
    | ⟨1, _⟩ => exact rhs_col40 _ _)
  rw [el, er]

/-- What the body of call 2 stores is the dense layer of its three loaded blocks: the two changes of float format are
    the identity on the extended reals, the product accumulates into zero, the one-row bias is repeated down the rows. -/
theorem pay2_eq (x0 : FVec Ideal S5000x128 .f32) (x1 : FVec Ideal S128x40 .f32) (x2 : FVec Ideal S1x40 .f32) :
    k2_pay1 (F := Ideal) x0 x1 x2 = dense x0 x1 x2 := by
  funext j
  obtain ⟨p, q, rfl⟩ : ∃ (p : Fin 5000) (q : Fin 40), j = ix2 p q := ⟨j 0, j 1, eq_ix2 j⟩
  rw [dense_apply]
  unfold k2_pay1
  simp only [shapeCast_self]
  refine (congrArg₂ max (congrArg₂ (· + ·) (matmul_entry40 _ _ p q) (broadcastTo_1b_ab_apply x2 broadcasts_S1x40_S5000x40 p q)) rfl).trans ?_
  rfl

end Cert.KernelIdeal.Pay

end
-- ==== Proof.Layer0.lean ====
/-
  Call 0 of the kernel, from whatever the buffers hold when it is entered: after its twenty grid points the
  result array is the dense layer `relu (x · W + b)` of the three arrays it reads, whole. Point `t` loads rows
  `5000 t … 5000 t + 4999` of `x`, all of `W` and the one-row `b`, and writes back rows `5000 t … 5000 t + 4999` of
  the result; a row of the layer depends on the same row of `x` only, so each written block is that block of the
  whole layer, and the twenty blocks tile the 100000 rows.
-/
import proofs.«148105_j33569464386076_1_alg».proof.Proof.Gen.KernelIdeal.Frame
import proofs.«148105_j33569464386076_1_alg».proof.Proof.Payload
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Layer0

open Cert.KernelIdeal Cert.KernelIdeal.Gen Cert.KernelIdeal.Pay Cert.Dense Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the `x` window and the result window move down the rows with the point, the
    `W` and `b` windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer on a block of rows is the block of the layer on the whole array, entry by entry: given that the row
    block `A` holds, along the entry's row, the whole array's row, and that the other two blocks are the whole `W`
    and `b`. -/
theorem dense_block (A : FVec Ideal S5000x128 .f32) (B : FVec Ideal S128x128 .f32) (C : FVec Ideal S1x128 .f32)
    (X : FVec Ideal S100000x128 .f32) (W : FVec Ideal S128x128 .f32) (Bb : FVec Ideal S1x128 .f32)
    (j : S5000x128.Idx) (i : S100000x128.Idx)
    (hA : ∀ k : Fin 128, A (ix2 (j 0) k) = X (ix2 (i 0) k)) (hB : B = W) (hC : C = Bb) (h1 : i 1 = j 1) :
    dense A B C j = dense X W Bb i := by
  subst hB hC
  rw [eq_ix2 j, eq_ix2 i, h1]
  exact dense_row A X B C (j 0) (i 0) (j 1) hA

/-- What point `t` writes back is block `t` of the whole layer of the three arrays as the call finds them. -/
theorem flushed_eq (c : Dev nD) (t : Fin cfg0.N) :
    (dat0 (F := Ideal) V c).flushed 3 t = ((cfg0.win 3).blk t).view.read (Elt Ideal)
      (dense (V c main_v9 : FVec Ideal S100000x128 .f32) (V c main_arg3 : FVec Ideal S128x128 .f32) (V c main_v10 : FVec Ideal S1x128 .f32)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e00, e01, e10, e11, e20, e21, e30, e31⟩ := idx_facts t
  funext j
  show k0_pay1 (F := Ideal) (iblk0 V c 0 t) (iblk0 V c 1 t) (iblk0 V c 2 t) j
    = dense (V c main_v9 : FVec Ideal S100000x128 .f32) (V c main_arg3 : FVec Ideal S128x128 .f32) (V c main_v10 : FVec Ideal S1x128 .f32) (((cfg0.win 3).blk t).view.emb j)
  rw [pay0_eq]
  refine dense_block _ _ _ _ _ _ j _ (fun k => ?_) ?_ ?_ ?_
  · show V c main_v9 (((cfg0.win 0).blk t).view.emb (ix2 (j 0) k)) = V c main_v9 (ix2 ((((cfg0.win 3).blk t).view.emb j) 0) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · funext y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v10 (((cfg0.win 2).blk t).view.emb y) = V c main_v10 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · apply Fin.ext
    show win0_3.index t (1 : Fin 2) * 128 + 1 * (j 1).val = (j 1).val
    omega

/-- An entry of the result array lies in point `t`'s block exactly when its row is among the block's 5000 rows. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- Every entry of the result array is in the block of the point its row falls in: row `r` belongs to point `r / 5000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨-, -, -, -, -, -, e30, e31⟩ := idx_facts ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e31]; omega

/-- THE RESULT ARRAY after the call: the whole dense layer of the arrays the call found. -/
theorem final (c : Dev nD) :
    (dat0 (F := Ideal) V c).arrAt 3 cfg0.N
      = dense (V c main_v9 : FVec Ideal S100000x128 .f32) (V c main_arg3 : FVec Ideal S128x128 .f32) (V c main_v10 : FVec Ideal S1x128 .f32) :=
  (dat0 (F := Ideal) V c).arrAt_eq_of_cover 3 _ (fun t _ => flushed_eq V c t) cover

end Cert.KernelIdeal.Layer0

end
-- ==== Proof.Layer1.lean ====
/-
  Call 1 of the kernel, from whatever the buffers hold when it is entered: after its twenty grid points the
  result array is the dense layer `relu (x · W + b)` of the three arrays it reads, whole. Point `t` loads rows
  `5000 t … 5000 t + 4999` of `x`, all of `W` and the one-row `b`, and writes back rows `5000 t … 5000 t + 4999` of
  the result; a row of the layer depends on the same row of `x` only, so each written block is that block of the
  whole layer, and the twenty blocks tile the 100000 rows.
-/
import proofs.«148105_j33569464386076_1_alg».proof.Proof.Gen.KernelIdeal.Frame
import proofs.«148105_j33569464386076_1_alg».proof.Proof.Payload
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Layer1

open Cert.KernelIdeal Cert.KernelIdeal.Gen Cert.KernelIdeal.Pay Cert.Dense Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the `x` window and the result window move down the rows with the point, the
    `W` and `b` windows stay at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The layer on a block of rows is the block of the layer on the whole array, entry by entry: given that the row
    block `A` holds, along the entry's row, the whole array's row, and that the other two blocks are the whole `W`
    and `b`. -/
theorem dense_block (A : FVec Ideal S5000x128 .f32) (B : FVec Ideal S128x128 .f32) (C : FVec Ideal S1x128 .f32)
    (X : FVec Ideal S100000x128 .f32) (W : FVec Ideal S128x128 .f32) (Bb : FVec Ideal S1x128 .f32)
    (j : S5000x128.Idx) (i : S100000x128.Idx)
    (hA : ∀ k : Fin 128, A (ix2 (j 0) k) = X (ix2 (i 0) k)) (hB : B = W) (hC : C = Bb) (h1 : i 1 = j 1) :
    dense A B C j = dense X W Bb i := by
  subst hB hC
  rw [eq_ix2 j, eq_ix2 i, h1]
  exact dense_row A X B C (j 0) (i 0) (j 1) hA

/-- What point `t` writes back is block `t` of the whole layer of the three arrays as the call finds them. -/
theorem flushed_eq (c : Dev nD) (t : Fin cfg1.N) :
    (dat1 (F := Ideal) V c).flushed 3 t = ((cfg1.win 3).blk t).view.read (Elt Ideal)
      (dense (V c main_v21 : FVec Ideal S100000x128 .f32) (V c main_arg5 : FVec Ideal S128x128 .f32) (V c main_v22 : FVec Ideal S1x128 .f32)) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨e00, e01, e10, e11, e20, e21, e30, e31⟩ := idx_facts t
  funext j
  show k1_pay1 (F := Ideal) (iblk1 V c 0 t) (iblk1 V c 1 t) (iblk1 V c 2 t) j
    = dense (V c main_v21 : FVec Ideal S100000x128 .f32) (V c main_arg5 : FVec Ideal S128x128 .f32) (V c main_v22 : FVec Ideal S1x128 .f32) (((cfg1.win 3).blk t).view.emb j)
  rw [pay1_eq]
  refine dense_block _ _ _ _ _ _ j _ (fun k => ?_) ?_ ?_ ?_
  · show V c main_v21 (((cfg1.win 0).blk t).view.emb (ix2 (j 0) k)) = V c main_v21 (ix2 ((((cfg1.win 3).blk t).view.emb j) 0) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · funext y
    show V c main_arg5 (((cfg1.win 1).blk t).view.emb y) = V c main_arg5 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_v22 (((cfg1.win 2).blk t).view.emb y) = V c main_v22 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · apply Fin.ext
    show win1_3.index t (1 : Fin 2) * 128 + 1 * (j 1).val = (j 1).val
    omega

/-- An entry of the result array lies in point `t`'s block exactly when its row is among the block's 5000 rows. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v23).slice (win1_3.rect t)).set ↔ _
  rw [View.set_slice_whole, Rect.mem_set_unit]
  exact Iff.rfl

/-- Every entry of the result array is in the block of the point its row falls in: row `r` belongs to point `r / 5000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk]
  obtain ⟨-, -, -, -, -, -, e30, e31⟩ := idx_facts ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e30]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e31]; omega

/-- THE RESULT ARRAY after the call: the whole dense layer of the arrays the call found. -/
theorem final (c : Dev nD) :
    (dat1 (F := Ideal) V c).arrAt 3 cfg1.N
      = dense (V c main_v21 : FVec Ideal S100000x128 .f32) (V c main_arg5 : FVec Ideal S128x128 .f32) (V c main_v22 : FVec Ideal S1x128 .f32) :=
  (dat1 (F := Ideal) V c).arrAt_eq_of_cover 3 _ (fun t _ => flushed_eq V c t) cover

end Cert.KernelIdeal.Layer1

end
-- ==== Proof.Layer2.lean ====
/-
  Call 2 of the kernel, from whatever the buffers hold when it is entered: after its twenty grid points the
  result array is the dense layer `relu (x · W + b)` of the three arrays it reads, whole. Point `t` loads rows
  `5000 t … 5000 t + 4999` of `x`, all of `W` and the one-row `b`, and writes back rows `5000 t … 5000 t + 4999` of
  the result; a row of the layer depends on the same row of `x` only, so each written block is that block of the
  whole layer, and the twenty blocks tile the 100000 rows.
-/
import proofs.«148105_j33569464386076_1_alg».proof.Proof.Gen.KernelIdeal.Frame
import proofs.«148105_j33569464386076_1_alg».proof.Proof.Payload
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Layer2

open Cert.KernelIdeal Cert.KernelIdeal.Gen Cert.KernelIdeal.Pay Cert.Dense Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the `x` window and the result window move down the rows with the point, the
    `W` and `b` windows stay at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The layer on a block of rows is the block of the layer on the whole array, entry by entry: given that the row
    block `A` holds, along the entry's row, the whole array's row, and that the other two blocks are the whole `W`
    and `b`. -/
theorem dense_block (A : FVec Ideal S5000x128 .f32) (B : FVec Ideal S128x40 .f32) (C : FVec Ideal S1x40 .f32)
    (X : FVec Ideal S100000x128 .f32) (W : FVec Ideal S128x40 .f32) (Bb : FVec Ideal S1x40 .f32)
    (j : S5000x40.Idx) (i : S100000x40.Idx)
    (hA : ∀ k : Fin 128, A (ix2 (j 0) k) = X (ix2 (i 0) k)) (hB : B = W) (hC : C = Bb) (h1 : i 1 = j 1) :
    dense A B C j = dense X W Bb i := by
  subst hB hC
  rw [eq_ix2 j, eq_ix2 i, h1]
  exact dense_row A X B C (j 0) (i 0) (j 1) hA

/-- What point `t` writes back is block `t` of the whole layer of the three arrays as the call finds them. -/
theorem flushed_eq (c : Dev nD) (t : Fin cfg2.N) :
    (dat2 (F := Ideal) V c).flushed 3 t = ((cfg2.win 3).blk t).view.read (Elt Ideal)
      (dense (V c main_v33 : FVec Ideal S100000x128 .f32) (V c main_arg7 : FVec Ideal S128x40 .f32) (V c main_v34 : FVec Ideal S1x40 .f32)) := by
  show (cfg2.win 3).cut (grid2.coords t) ((dat2 (F := Ideal) V c).after 3 t) = _
  rw [after2_3]
  unfold out2_3
  rw [View.canon_unit_zero hz]
  simp only [View.ld_unit_zero (S := S5000x128) hz, View.ld_unit_zero (S := S128x40) hz, View.ld_unit_zero (S := S1x40) hz]
  obtain ⟨e00, e01, e10, e11, e20, e21, e30, e31⟩ := idx_facts t
  funext j
  show k2_pay1 (F := Ideal) (iblk2 V c 0 t) (iblk2 V c 1 t) (iblk2 V c 2 t) j
    = dense (V c main_v33 : FVec Ideal S100000x128 .f32) (V c main_arg7 : FVec Ideal S128x40 .f32) (V c main_v34 : FVec Ideal S1x40 .f32) (((cfg2.win 3).blk t).view.emb j)
  rw [pay2_eq]
  refine dense_block _ _ _ _ _ _ j _ (fun k => ?_) ?_ ?_ ?_
  · show V c main_v33 (((cfg2.win 0).blk t).view.emb (ix2 (j 0) k)) = V c main_v33 (ix2 ((((cfg2.win 3).blk t).view.emb j) 0) k)
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · funext y
    show V c main_arg7 (((cfg2.win 1).blk t).view.emb y) = V c main_arg7 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 40 + 1 * (y 1).val = (y 1).val; omega
  · funext y
    show V c main_v34 (((cfg2.win 2).blk t).view.emb y) = V c main_v34 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 40 + 1 * (y 1).val = (y 1).val; omega
  · apply Fin.ext
    show win2_3.index t (1 : Fin 2) * 40 + 1 * (j 1).val = (j 1).val
    omega

/-- An entry of the result array lies in point `t`'s block exactly when its row is among the block's 5000 rows. -/
theorem mem_blk (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v35).slice (win2_3.rect t)).set ↔ _
  rw [View.set_slice_whole, Rect.mem_set_unit]
  exact Iff.rfl

/-- Every entry of the result array is in the block of the point its row falls in: row `r` belongs to point `r / 5000`. -/
theorem cover (i : S100000x40.Idx) : ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_3 _, ?_⟩
  rw [mem_blk]
  obtain ⟨-, -, -, -, -, -, e30, e31⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
  | ⟨1, _⟩ => show win2_3.index _ (1 : Fin 2) * 40 ≤ (i 1).val ∧ (i 1).val < win2_3.index _ (1 : Fin 2) * 40 + 40; rw [e31]; omega

/-- THE RESULT ARRAY after the call: the whole dense layer of the arrays the call found. -/
theorem final (c : Dev nD) :
    (dat2 (F := Ideal) V c).arrAt 3 cfg2.N
      = dense (V c main_v33 : FVec Ideal S100000x128 .f32) (V c main_arg7 : FVec Ideal S128x40 .f32) (V c main_v34 : FVec Ideal S1x40 .f32) :=
  (dat2 (F := Ideal) V c).arrAt_eq_of_cover 3 _ (fun t _ => flushed_eq V c t) cover

end Cert.KernelIdeal.Layer2

end
-- ==== Proof.KernelRun.lean ====
/-
  The kernel program's run with its RESULT named. The program is three kernel calls among stretches of host
  operations; its run is the library's theorem for a list of such segments, applied to the segments, thread
  states and boundary contents of the generated frame module. That module reads off the final state only the
  argument arrays; here the result array is read as well: after the last call every buffer the thread holds is at
  the last boundary's contents, and the result buffer is one of them.
-/
import proofs.«148105_j33569464386076_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in every final state the result array holds
    the last boundary's contents at its buffer, and the nine argument arrays are as launched. -/
theorem run_value : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.KernelValue.lean ====
/-
  The kernel program's result as one function of its nine arguments. The program alternates three times between a
  stretch of host operations and a kernel call. Each stretch gathers the rows of the current features at the edges'
  source nodes, adds them into the rows of their destination nodes from zero (the neighbour sums, carried as one
  function `agg` that is never opened), and reshapes the layer's bias vector to one row; each call then leaves the
  dense layer `relu (x · W + b)` of those three arrays in its result array (`Layer0`, `Layer1`, `Layer2`: whatever the
  buffers held at entry). No stretch and no call writes an argument array, so the index vectors, weights and biases
  every layer reads are the launch contents. Folding the three layers gives the result array after the last call;
  the program's run then has that array in its result buffer.
-/
import proofs.«148105_j33569464386076_1_alg».proof.Proof.Gen.KernelIdeal.Frame
import proofs.«148105_j33569464386076_1_alg».proof.Proof.Layer0
import proofs.«148105_j33569464386076_1_alg».proof.Proof.Layer1
import proofs.«148105_j33569464386076_1_alg».proof.Proof.Layer2
import proofs.«148105_j33569464386076_1_alg».proof.Proof.KernelRun
import Idealize.ShloMosaic.Lib.StableHlo.Run

set_option maxRecDepth 16384

noncomputable section

open scoped BigOperators
open Idealize.ShloMosaic Idealize.ShloMosaic.TcCoe Idealize.SL.Sem Idealize.ShloMosaic.StableHlo

namespace Cert.KernelIdeal.Whole

open Cert.KernelIdeal Cert.KernelIdeal.Gen Cert.Dense Idealize.ShloMosaic.ValueIdx

variable (m : (ℓ : Loc nD τ sig) → Buf (Elt Ideal) ℓ) (ρ : Dev nD → PrngReg)

/-- The neighbour sums of one layer: row `v` of the result is the sum of the rows `x[src e]` over the edges `e` with
    `dst e = v` — the host's gather at the source indices (a negative one moved up by the node count) followed by its
    scatter-add into zeros at the destination indices. Carried whole. -/
def agg (x : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The layer of equal arrays is equal. -/
theorem dense_congr {M K N : ℕ} {x x' : FVec Ideal ⟨2, ![M, K]⟩ .f32} {W W' : FVec Ideal ⟨2, ![K, N]⟩ .f32}
    {b b' : FVec Ideal ⟨2, ![1, N]⟩ .f32} (hx : x = x') (hW : W = W') (hb : b = b') : dense x W b = dense x' W' b' := by
  subst hx hW hb; rfl

/-! ## The argument arrays at the boundaries after the first and second calls -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    dsimp only [hostOps0]
    after_results <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    dsimp only [hostOps0]
    after_results <;> rfl)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    dsimp only [hostOps0]
    after_results <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    dsimp only [hostOps0]
    after_results <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    dsimp only [hostOps0]
    after_results <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    dsimp only [hostOps0]
    after_results <;> rfl)

theorem W4_arg1 (c : Dev nD) : W4 m ρ c (Proc.devRef .tc main_arg1) = m ((c : Thread nD τ).loc main_arg1) :=
  (W4_of_ne m ρ c main_arg1 (by decide)).trans ((show StableHlo.after hostOps1 (W2 m ρ c) (Proc.devRef .tc main_arg1) = W2 m ρ c (Proc.devRef .tc main_arg1) by
    dsimp only [hostOps1]
    after_results <;> rfl).trans (W2_arg1 m ρ c))
theorem W4_arg2 (c : Dev nD) : W4 m ρ c (Proc.devRef .tc main_arg2) = m ((c : Thread nD τ).loc main_arg2) :=
  (W4_of_ne m ρ c main_arg2 (by decide)).trans ((show StableHlo.after hostOps1 (W2 m ρ c) (Proc.devRef .tc main_arg2) = W2 m ρ c (Proc.devRef .tc main_arg2) by
    dsimp only [hostOps1]
    after_results <;> rfl).trans (W2_arg2 m ρ c))
theorem W4_arg7 (c : Dev nD) : W4 m ρ c (Proc.devRef .tc main_arg7) = m ((c : Thread nD τ).loc main_arg7) :=
  (W4_of_ne m ρ c main_arg7 (by decide)).trans ((show StableHlo.after hostOps1 (W2 m ρ c) (Proc.devRef .tc main_arg7) = W2 m ρ c (Proc.devRef .tc main_arg7) by
    dsimp only [hostOps1]
    after_results <;> rfl).trans (W2_arg7 m ρ c))
theorem W4_arg8 (c : Dev nD) : W4 m ρ c (Proc.devRef .tc main_arg8) = m ((c : Thread nD τ).loc main_arg8) :=
  (W4_of_ne m ρ c main_arg8 (by decide)).trans ((show StableHlo.after hostOps1 (W2 m ρ c) (Proc.devRef .tc main_arg8) = W2 m ρ c (Proc.devRef .tc main_arg8) by
    dsimp only [hostOps1]
    after_results <;> rfl).trans (W2_arg8 m ρ c))

/-! ## The first layer -/

theorem entry0_x (c : Dev nD) : (V1 m ρ c main_v9 : (⟨S100000x128, .f32⟩ : BufTy).Contents (Elt Ideal))
    = agg (m ((c : Thread nD τ).loc main_arg0)) (m ((c : Thread nD τ).loc main_arg1)) (m ((c : Thread nD τ).loc main_arg2)) := by
  show StableHlo.after hostOps0 (W0 m ρ c) (Proc.devRef .tc main_v9) = _
  dsimp only [hostOps0]
  after_results <;> rfl

theorem entry0_w (c : Dev nD) : (V1 m ρ c main_arg3 : (⟨S128x128, .f32⟩ : BufTy).Contents (Elt Ideal)) = (m ((c : Thread nD τ).loc main_arg3)) := by
  show StableHlo.after hostOps0 (W0 m ρ c) (Proc.devRef .tc main_arg3) = _
  dsimp only [hostOps0]
  after_results <;> rfl

theorem entry0_b (c : Dev nD) : (V1 m ρ c main_v10 : (⟨S1x128, .f32⟩ : BufTy).Contents (Elt Ideal))
    = shapeCast S1x128 (m ((c : Thread nD τ).loc main_arg4)) shapeCasts_S128_S1x128 := by
  show StableHlo.after hostOps0 (W0 m ρ c) (Proc.devRef .tc main_v10) = _
  dsimp only [hostOps0]
  after_results <;> rfl

/-- After the first call its result array holds the first layer of the input features. -/
theorem out0 (c : Dev nD) : (W2 m ρ c (Proc.devRef .tc main_v11) : (⟨S100000x128, .f32⟩ : BufTy).Contents (Elt Ideal))
    = dense (agg (m ((c : Thread nD τ).loc main_arg0)) (m ((c : Thread nD τ).loc main_arg1)) (m ((c : Thread nD τ).loc main_arg2))) (m ((c : Thread nD τ).loc main_arg3)) (shapeCast S1x128 (m ((c : Thread nD τ).loc main_arg4)) shapeCasts_S128_S1x128) :=
  (W2_arr m ρ c 3).trans ((Layer0.final (V1 m ρ) c).trans (dense_congr (entry0_x m ρ c) (entry0_w m ρ c) (entry0_b m ρ c)))

/-! ## The second layer -/

theorem entry1_x (c : Dev nD) : (V3 m ρ c main_v21 : (⟨S100000x128, .f32⟩ : BufTy).Contents (Elt Ideal))
    = agg (W2 m ρ c (Proc.devRef .tc main_v11)) (W2 m ρ c (Proc.devRef .tc main_arg1)) (W2 m ρ c (Proc.devRef .tc main_arg2)) := by
  show StableHlo.after hostOps1 (W2 m ρ c) (Proc.devRef .tc main_v21) = _
  dsimp only [hostOps1]
  after_results <;> rfl

theorem entry1_w (c : Dev nD) : (V3 m ρ c main_arg5 : (⟨S128x128, .f32⟩ : BufTy).Contents (Elt Ideal)) = W2 m ρ c (Proc.devRef .tc main_arg5) := by
  show StableHlo.after hostOps1 (W2 m ρ c) (Proc.devRef .tc main_arg5) = _
  dsimp only [hostOps1]
  after_results <;> rfl

theorem entry1_b (c : Dev nD) : (V3 m ρ c main_v22 : (⟨S1x128, .f32⟩ : BufTy).Contents (Elt Ideal))
    = shapeCast S1x128 (W2 m ρ c (Proc.devRef .tc main_arg6)) shapeCasts_S128_S1x128 := by
  show StableHlo.after hostOps1 (W2 m ρ c) (Proc.devRef .tc main_v22) = _
  dsimp only [hostOps1]
  after_results <;> rfl

/-- After the second call its result array holds the second layer. -/
theorem out1 (c : Dev nD) : (W4 m ρ c (Proc.devRef .tc main_v23) : (⟨S100000x128, .f32⟩ : BufTy).Contents (Elt Ideal))
    = dense (agg (dense (agg (m ((c : Thread nD τ).loc main_arg0)) (m ((c : Thread nD τ).loc main_arg1)) (m ((c : Thread nD τ).loc main_arg2))) (m ((c : Thread nD τ).loc main_arg3)) (shapeCast S1x128 (m ((c : Thread nD τ).loc main_arg4)) shapeCasts_S128_S1x128)) (m ((c : Thread nD τ).loc main_arg1)) (m ((c : Thread nD τ).loc main_arg2)))
        (m ((c : Thread nD τ).loc main_arg5)) (shapeCast S1x128 (m ((c : Thread nD τ).loc main_arg6)) shapeCasts_S128_S1x128) :=
  (W4_arr m ρ c 3).trans ((Layer1.final (V3 m ρ) c).trans (dense_congr
    ((entry1_x m ρ c).trans (by rw [out0 m ρ c, W2_arg1 m ρ c, W2_arg2 m ρ c]))
    ((entry1_w m ρ c).trans (W2_arg5 m ρ c))
    ((entry1_b m ρ c).trans (by rw [W2_arg6 m ρ c]))))

/-! ## The third layer -/

theorem entry2_x (c : Dev nD) : (V5 m ρ c main_v33 : (⟨S100000x128, .f32⟩ : BufTy).Contents (Elt Ideal))
    = agg (W4 m ρ c (Proc.devRef .tc main_v23)) (W4 m ρ c (Proc.devRef .tc main_arg1)) (W4 m ρ c (Proc.devRef .tc main_arg2)) := by
  show StableHlo.after hostOps2 (W4 m ρ c) (Proc.devRef .tc main_v33) = _
  dsimp only [hostOps2]
  after_results <;> rfl

theorem entry2_w (c : Dev nD) : (V5 m ρ c main_arg7 : (⟨S128x40, .f32⟩ : BufTy).Contents (Elt Ideal)) = W4 m ρ c (Proc.devRef .tc main_arg7) := by
  show StableHlo.after hostOps2 (W4 m ρ c) (Proc.devRef .tc main_arg7) = _
  dsimp only [hostOps2]
  after_results <;> rfl

theorem entry2_b (c : Dev nD) : (V5 m ρ c main_v34 : (⟨S1x40, .f32⟩ : BufTy).Contents (Elt Ideal))
    = shapeCast S1x40 (W4 m ρ c (Proc.devRef .tc main_arg8)) shapeCasts_S40_S1x40 := by
  show StableHlo.after hostOps2 (W4 m ρ c) (Proc.devRef .tc main_v34) = _
  dsimp only [hostOps2]
  after_results <;> rfl

/-- The kernel program's result as a function of its arguments: three dense layers, each over the neighbour sums of the
    one before, the biases as one-row matrices. -/
def value (a0 : (⟨S100000x128, .f32⟩ : BufTy).Contents (Elt Ideal)) (a1 a2 : (⟨S1600000, .i32⟩ : BufTy).Contents (Elt Ideal))
    (a3 : (⟨S128x128, .f32⟩ : BufTy).Contents (Elt Ideal)) (a4 : (⟨S128, .f32⟩ : BufTy).Contents (Elt Ideal))
    (a5 : (⟨S128x128, .f32⟩ : BufTy).Contents (Elt Ideal)) (a6 : (⟨S128, .f32⟩ : BufTy).Contents (Elt Ideal))
    (a7 : (⟨S128x40, .f32⟩ : BufTy).Contents (Elt Ideal)) (a8 : (⟨S40, .f32⟩ : BufTy).Contents (Elt Ideal)) :
    (⟨S100000x40, .f32⟩ : BufTy).Contents (Elt Ideal) :=
  dense (agg (dense (agg (dense (agg a0 a1 a2) a3 (shapeCast S1x128 a4 shapeCasts_S128_S1x128)) a1 a2) a5
      (shapeCast S1x128 a6 shapeCasts_S128_S1x128)) a1 a2) a7 (shapeCast S1x40 a8 shapeCasts_S40_S1x40)

/-- After the third call its result array holds `value` of the launch contents of the arguments. -/
theorem out2 (c : Dev nD) : (W6 m ρ c (Proc.devRef .tc main_v35) : (⟨S100000x40, .f32⟩ : BufTy).Contents (Elt Ideal))
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_arr m ρ c 3).trans ((Layer2.final (V5 m ρ) c).trans (dense_congr
    ((entry2_x m ρ c).trans (by rw [out1 m ρ c, W4_arg1 m ρ c, W4_arg2 m ρ c]))
    ((entry2_w m ρ c).trans (W4_arg7 m ρ c))
    ((entry2_b m ρ c).trans (by rw [W4_arg8 m ρ c]))))

/-- THE RUN, READ: every weakly fair execution terminates without a fault, the result array at `value` of the
    arguments, the arguments unchanged. -/
theorem run : θ_run defs (onTc (τ := τ) (main (F := Ideal))) ⟨m, fun _ => 0, ρ⟩ (fun r => ∀ c : Dev nD,
      r.2.mem ((c.tc : Thread nD τ).loc main_v35) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out2 m ρ c), (h c).2⟩) (run_value (F := Ideal) m ρ)

end Cert.KernelIdeal.Whole

end
-- ==== Proof.RefValue.lean ====
/-
  The reference, read as three dense layers over neighbour sums. Its program is, three times over: gather the rows
  of the current features at the edges' source nodes (a negative source index wrapped by the node count), add
  them into the rows of their destination nodes from zero, multiply by a weight matrix, add the bias along the
  rows, take the maximum with zero. The gather and scatter-add are carried as one function `agg` that is never
  opened; the matrix product, bias and rectifier are the layer `Cert.Dense.dense`, entry by entry: a product of a
  whole array with a matrix is, at entry `(r, q)`, the sum over the 128 shared coordinates of row `r` times column
  `q`; the bias, broadcast first to one row and then down the rows, is read at the column; the bias as one row is
  also what a reshape of the bias vector to one row holds.
-/
import proofs.«148105_j33569464386076_1_alg».proof.Proof.Gen.ReferenceIdeal.Read
import proofs.«148105_j33569464386076_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.Dense Idealize.ShloMosaic Idealize.ShloMosaic.ValueIdx

/-- The neighbour sums of one layer: row `v` of the result is the sum of the rows `x[src e]` over the edges `e` with
    `dst e = v` — the host's gather at the source indices (a negative one moved up by the node count) followed by its
    scatter-add into zeros at the destination indices. Carried whole. -/
def agg (x : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The first layer's neighbour sums are `agg` of the input features. -/
theorem v9_eq (x0 : (⟨S100000x128, .f32⟩ : BufTy).Contents (Elt Ideal)) (x1 x2 : (⟨S1600000, .i32⟩ : BufTy).Contents (Elt Ideal)) : val_main_v9 (F := Ideal) x0 x1 x2 = agg x0 x1 x2 := rfl
/-- The second layer's are `agg` of the first layer's result. -/
theorem v24_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) :
    val_main_v24 (F := Ideal) x0 x1 x2 x3 x4 = agg (val_main_v14 (F := Ideal) x0 x1 x2 x3 x4) x1 x2 := rfl
/-- The third layer's are `agg` of the second layer's result. -/
theorem v39_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v39 (F := Ideal) x0 x1 x2 x3 x4 x5 x6 = agg (val_main_v29 (F := Ideal) x0 x1 x2 x3 x4 x5 x6) x1 x2 := rfl

/-- The first layer's result is the dense layer of its neighbour sums. -/
theorem layer1 (h : S128.ShapeCasts S1x128) (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) :
    val_main_v14 (F := Ideal) x0 x1 x2 x3 x4 = dense (val_main_v9 (F := Ideal) x0 x1 x2) x3 (shapeCast S1x128 x4 h) := by
  funext i
  obtain ⟨r, q, rfl⟩ : ∃ (r : Fin 100000) (q : Fin 128), i = ix2 r q := ⟨i 0, i 1, eq_ix2 i⟩
  rw [dense_apply, val_main_v14_apply, val_main_v13_apply, val_main_v10_apply, val_main_v12_apply, val_main_v11_apply,
    val_main_call0_v0_apply, val_main_call0_cst_apply, shapeCast_a_1a_apply]
  have el : ∀ k : Fin 128, lidx_main_v10 (ix2 r q) k = ix2 r k := fun k => funext fun a => by
    match a with
    | ⟨0, _⟩ => rfl
    | ⟨1, _⟩ => rfl
  have er : ∀ k : Fin 128, ridx_main_v10 (ix2 r q) k = ix2 k q := fun k => funext fun a => by
    match a with
    | ⟨0, _⟩ => rfl
    | ⟨1, _⟩ => rfl
  have eb : idx_main_v11 (idx_main_v12 (ix2 r q)) = ix1 q := funext fun a => by
    match a with
    | ⟨0, _⟩ => rfl
  simp only [el, er, eb]
  rfl

/-- The second layer's result is the dense layer of its neighbour sums. -/
theorem layer2 (h : S128.ShapeCasts S1x128) (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v29 (F := Ideal) x0 x1 x2 x3 x4 x5 x6 = dense (val_main_v24 (F := Ideal) x0 x1 x2 x3 x4) x5 (shapeCast S1x128 x6 h) := by
  funext i
  obtain ⟨r, q, rfl⟩ : ∃ (r : Fin 100000) (q : Fin 128), i = ix2 r q := ⟨i 0, i 1, eq_ix2 i⟩
  rw [dense_apply, val_main_v29_apply, val_main_v28_apply, val_main_v25_apply, val_main_v27_apply, val_main_v26_apply,
    val_main_call1_v0_apply, val_main_call1_cst_apply, shapeCast_a_1a_apply]
  have el : ∀ k : Fin 128, lidx_main_v25 (ix2 r q) k = ix2 r k := fun k => funext fun a => by
    match a with
    | ⟨0, _⟩ => rfl
    | ⟨1, _⟩ => rfl
  have er : ∀ k : Fin 128, ridx_main_v25 (ix2 r q) k = ix2 k q := fun k => funext fun a => by
    match a with
    | ⟨0, _⟩ => rfl
    | ⟨1, _⟩ => rfl
  have eb : idx_main_v26 (idx_main_v27 (ix2 r q)) = ix1 q := funext fun a => by
    match a with
    | ⟨0, _⟩ => rfl
  simp only [el, er, eb]
  rfl

/-- The third layer's result, into 40 columns, is the dense layer of its neighbour sums. -/
theorem layer3 (h : S40.ShapeCasts S1x40) (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x8 : (⟨S40, .f32⟩ : BufTy).Contents (Elt Ideal)) :
    val_main_v44 (F := Ideal) x0 x1 x2 x3 x4 x5 x6 x7 x8 = dense (val_main_v39 (F := Ideal) x0 x1 x2 x3 x4 x5 x6) x7 (shapeCast S1x40 x8 h) := by
  funext i
  obtain ⟨r, q, rfl⟩ : ∃ (r : Fin 100000) (q : Fin 40), i = ix2 r q := ⟨i 0, i 1, eq_ix2 i⟩
  rw [dense_apply, val_main_v44_apply, val_main_v43_apply, val_main_v40_apply, val_main_v42_apply, val_main_v41_apply,
    val_main_call2_v0_apply, val_main_call2_cst_apply, shapeCast_a_1a_apply]
  have el : ∀ k : Fin 128, lidx_main_v40 (ix2 r q) k = ix2 r k := fun k => funext fun a => by
    match a with
    | ⟨0, _⟩ => rfl
    | ⟨1, _⟩ => rfl
  have er : ∀ k : Fin 128, ridx_main_v40 (ix2 r q) k = ix2 k q := fun k => funext fun a => by
    match a with
    | ⟨0, _⟩ => rfl
    | ⟨1, _⟩ => rfl
  have eb : idx_main_v41 (idx_main_v42 (ix2 r q)) = ix1 q := funext fun a => by
    match a with
    | ⟨0, _⟩ => rfl
  simp only [el, er, eb]
  rfl

/-- THE REFERENCE'S RESULT as one function of its nine arguments: three dense layers, each over the neighbour sums of
    the one before. -/
theorem result (h : S128.ShapeCasts S1x128) (h' : S40.ShapeCasts S1x40) (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x40, .f32⟩ : BufTy).Contents (Elt Ideal)) (x8 : (⟨S40, .f32⟩ : BufTy).Contents (Elt Ideal)) :
    val_main_v44 (F := Ideal) x0 x1 x2 x3 x4 x5 x6 x7 x8
      = dense (agg (dense (agg (dense (agg x0 x1 x2) x3 (shapeCast S1x128 x4 h)) x1 x2) x5 (shapeCast S1x128 x6 h)) x1 x2) x7
          (shapeCast S1x40 x8 h') := by
  rw [layer3 h', v39_eq, layer2 h, v24_eq, layer1 h, v9_eq]

end Cert.ReferenceIdeal.RefValue

end
-- ==== Proof.lean ====
/-
  The certificate of a three-layer graph convolution: each layer sums, for every node, the feature rows of its
  in-neighbours (a gather of rows at the edges' sources, added into the rows of their destinations), multiplies the
  sums by a weight matrix, adds a bias and takes the maximum with zero. The kernel program computes the matrix
  product, bias and rectifier of each layer in a kernel call over twenty blocks of 5000 rows, with both factors cast
  to a narrower float format, and leaves the neighbour sums to host operations; the reference does all of it with
  host operations. Over the extended reals a change of float format is the identity and a product accumulated into
  zero is the plain sum of products, so a call's twenty blocks are the blocks of the reference's whole-array layer
  (row `r` of a dense layer depends on row `r` of its input only), and the neighbour sums are the same host
  operations on both sides, carried as one function and never opened. No step distributes a product over a sum or
  cancels, so the finiteness of the inputs is not used.

  `Proof/LibDense.lean` states the layer; `Payload.lean` reads each kernel body's stored value as the layer of its loaded
  blocks; `Layer0.lean`, `Layer1.lean`, `Layer2.lean` put a call's blocks together into the whole layer, from whatever
  the buffers hold at its entry; `KernelRun.lean` and `KernelValue.lean` run the program with its result named and fold
  the three layers; `RefValue.lean` reads the reference's run as the same three layers. Here the two results are
  identified and the five claims assembled.
-/
import proofs.«148105_j33569464386076_1_alg».proof.Defs
import proofs.«148105_j33569464386076_1_alg».proof.Proof.Gen.Kernel
import proofs.«148105_j33569464386076_1_alg».proof.Proof.Gen.Kernel.Skeleton
import proofs.«148105_j33569464386076_1_alg».proof.Proof.Gen.Kernel.Launch
import proofs.«148105_j33569464386076_1_alg».proof.Proof.Gen.Kernel.Points
import proofs.«148105_j33569464386076_1_alg».proof.Proof.Gen.Kernel.Frame
import proofs.«148105_j33569464386076_1_alg».proof.Proof.Gen.KernelIdeal
import proofs.«148105_j33569464386076_1_alg».proof.Proof.Gen.KernelIdeal.Skeleton
import proofs.«148105_j33569464386076_1_alg».proof.Proof.Gen.KernelIdeal.Launch
import proofs.«148105_j33569464386076_1_alg».proof.Proof.Gen.KernelIdeal.Points
import proofs.«148105_j33569464386076_1_alg».proof.Proof.Gen.KernelIdeal.Frame
import proofs.«148105_j33569464386076_1_alg».proof.Proof.Gen.ReferenceIdeal
import proofs.«148105_j33569464386076_1_alg».proof.Proof.Gen.Pre_finite_inputs
import proofs.«148105_j33569464386076_1_alg».proof.Proof.Gen.ReferenceIdeal.Run
import proofs.«148105_j33569464386076_1_alg».proof.Proof.Gen.ReferenceIdeal.Read
import proofs.«148105_j33569464386076_1_alg».proof.Proof.KernelValue
import proofs.«148105_j33569464386076_1_alg».proof.Proof.RefValue
import Idealize.ShloMosaic.Adequacy
import Idealize.ShloMosaic.Init

noncomputable section

namespace Cert.Proof

open Idealize.ShloMosaic Idealize.ShloMosaic.TcCoe Idealize.SL.Sem Cert.Dense

/-- The neighbour sums are one function on the two sides: the same gather and scatter-add over the same shapes. -/
theorem agg_eq : Cert.KernelIdeal.Whole.agg = Cert.ReferenceIdeal.RefValue.agg := rfl

/-- The kernel program runs and leaves its arguments unchanged, at the word level … -/
theorem frame_k : Cert.frame_Kernel := fun m ρ _ => Cert.Kernel.Gen.frame m ρ
/-- … and over the extended reals. -/
theorem frame_ki : Cert.frame_KernelIdeal := fun m ρ _ => Cert.KernelIdeal.Gen.frame m ρ
/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten in passing to the extended reals. -/
theorem preserves : Cert.preserves_Kernel_KernelIdeal := trivial

/-- From memories that agree on the nine arguments both programs end with the same result array: three dense layers,
    each over the neighbour sums of the one before. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  refine (Cert.ReferenceIdeal.Read.val_main_v44_eq _ _ _ _ _ _ _ _ _).trans ?_
  refine (Cert.ReferenceIdeal.RefValue.result Cert.KernelIdeal.Facts₀.shapeCasts_S128_S1x128
    Cert.KernelIdeal.Facts₀.shapeCasts_S40_S1x40 _ _ _ _ _ _ _ _ _).trans ?_
  rw [e0, e1, e2, e3, e4, e5, e6, e7, e8, ← agg_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
